-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x64 : Shape := ⟨3, ![16, 8192, 64]⟩
abbrev S16x1024x64 : Shape := ⟨3, ![16, 1024, 64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S16x1024x64 : S_.BroadcastsInDim S16x1024x64 (![] : Fin 0 → Fin S16x1024x64.rank)
  reducesTo_S16x1024x64_S_d0_1_2 : S16x1024x64.ReducesTo [0, 1, 2] S_

variable [Facts]

def fn {F : FTy → Type} [FloatOps F] (main_arg0 : FVec F S16x8192x64 .f32) (main_arg1 : FVec F S16x1024x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S16x1024x64 .f32 := Host.absf main_arg1
  let main_cst_0 : FVec F S_ .f32 := constant S_ .f32 0x7F800000#32
  let main_v5 : FVec F S16x1024x64 .f32 := broadcastInDim S16x1024x64 ![] bcast_S_S16x1024x64 main_cst_0
  let main_v6 : IVec S16x1024x64 1 := cmpf .olt main_v4 main_v5
  let main_c_1 : IVec S_ 1 := constantI S_ 1 1#1
  let main_v7 : IVec S_ 1 := (fun x v => Host.reduce IntOp.andi x v reducesTo_S16x1024x64_S_d0_1_2 h_S_) main_v6 main_c_1
  let main_v8 : IVec S_ 1 := andi main_v3 main_v7
  main_v8
-- ==== Kernel.lean ====
abbrev S16x8192x64 : Shape := ⟨3, ![16, 8192, 64]⟩
abbrev S16x1024x64 : Shape := ⟨3, ![16, 1024, 64]⟩
abbrev S16x8192x1024 : Shape := ⟨3, ![16, 8192, 1024]⟩
abbrev S1x2048x64 : Shape := ⟨3, ![1, 2048, 64]⟩
abbrev S1x1024x64 : Shape := ⟨3, ![1, 1024, 64]⟩
abbrev S1x2048x1024 : Shape := ⟨3, ![1, 2048, 1024]⟩
abbrev S1x1024 : Shape := ⟨2, ![1, 1024]⟩
abbrev S1024x64 : Shape := ⟨2, ![1024, 64]⟩
abbrev S1024 : Shape := ⟨1, ![1024]⟩
abbrev S1024x1 : Shape := ⟨2, ![1024, 1]⟩
abbrev S2048x64 : Shape := ⟨2, ![2048, 64]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 3
  | .vmem => 8
  | .smem => 0
  | _ => 0

abbrev bufTy : (tb : Table) → Fin (tcTables nBuf tb) → BufTy
  | .hbm, ⟨0, _⟩ => ⟨S16x8192x64, .f32⟩
  | .hbm, ⟨1, _⟩ => ⟨S16x1024x64, .f32⟩
  | .hbm, ⟨2, _⟩ => ⟨S16x8192x1024, .f32⟩
  | .local _ .vmem, ⟨0, _⟩ => ⟨S1x2048x64, .f32⟩
  | .local _ .vmem, ⟨1, _⟩ => ⟨S1x2048x64, .f32⟩
  | .local _ .vmem, ⟨2, _⟩ => ⟨S1x1024x64, .f32⟩
  | .local _ .vmem, ⟨3, _⟩ => ⟨S1x1024x64, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1024, .f32⟩
  | .local _ .vmem, ⟨7, _⟩ => ⟨S1024x64, .bf16⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S2048x64_S2048 : S2048x64.Reduces [1] S2048
  shapeCasts_S2048_S2048x1 : S2048.ShapeCasts S2048x1
  broadcasts_S2048x1_S2048x1024 : S2048x1.Broadcasts S2048x1024
  broadcasts_S1x1024_S2048x1024 : S1x1024.Broadcasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x8192x64.size a
  hwx0_0 : ∀ i : grid0.Coords, EltTy.bits .f32 = 32 ∨ (Rect.block (s := S16x8192x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .f32 = 32 ∨ (Rect.block (s := S16x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x8192x1024.size a
  hwx0_2 : ∀ i : grid0.Coords, EltTy.bits .f32 = 32 ∨ (Rect.block (s := S16x8192x1024) S1x2048x1024.size (cc0_transform_2 i) (hinb0_2 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8192x64 : Shape := ⟨3, ![16, 8192, 64]⟩
abbrev S16x1024x64 : Shape := ⟨3, ![16, 1024, 64]⟩
abbrev S_ : Shape := ⟨0, ![]⟩
abbrev S16x8192 : Shape := ⟨2, ![16, 8192]⟩
abbrev S16x8192x1 : Shape := ⟨3, ![16, 8192, 1]⟩
abbrev S16x1024 : Shape := ⟨2, ![16, 1024]⟩
abbrev S16x1x1024 : Shape := ⟨3, ![16, 1, 1024]⟩
abbrev S16x8192x1024 : Shape := ⟨3, ![16, 8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x1024x64, .f32⟩
  | .hbm, ⟨2, _⟩ => ⟨S16x8192x64, .f32⟩
  | .hbm, ⟨3, _⟩ => ⟨S_, .f32⟩
  | .hbm, ⟨4, _⟩ => ⟨S16x8192, .f32⟩
  | .hbm, ⟨5, _⟩ => ⟨S16x8192x1, .f32⟩
  | .hbm, ⟨6, _⟩ => ⟨S16x1024x64, .f32⟩
  | .hbm, ⟨7, _⟩ => ⟨S_, .f32⟩
  | .hbm, ⟨8, _⟩ => ⟨S16x1024, .f32⟩
  | .hbm, ⟨9, _⟩ => ⟨S16x1x1024, .f32⟩
  | .hbm, ⟨10, _⟩ => ⟨S16x8192x1024, .f32⟩
  | .hbm, ⟨11, _⟩ => ⟨S16x8192x1024, .f32⟩
  | .hbm, ⟨12, _⟩ => ⟨S16x8192x1024, .f32⟩
  | .hbm, ⟨13, _⟩ => ⟨S16x8192x1024, .f32⟩
  | .hbm, ⟨14, _⟩ => ⟨S_, .f32⟩
  | .hbm, ⟨15, _⟩ => ⟨S16x8192x1024, .f32⟩
  | .hbm, ⟨16, _⟩ => ⟨S16x8192x1024, .f32⟩
  | .hbm, ⟨17, _⟩ => ⟨S16x8192x1024, .f32⟩
  | .hbm, ⟨18, _⟩ => ⟨S_, .f32⟩
  | .hbm, ⟨19, _⟩ => ⟨S16x8192x1024, .f32⟩
  | .hbm, ⟨20, _⟩ => ⟨S16x8192x1024, .f32⟩
  | .hbm, ⟨21, _⟩ => ⟨S16x8192x1024, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16x8192x64_S16x8192_d2 : S16x8192x64.ReducesTo [2] S16x8192
  h_S_ : 0 < S_.numel
  bcast_S16x8192_S16x8192x1_0_1 : S16x8192.BroadcastsInDim S16x8192x1 (![0, 1] : Fin 2 → Fin S16x8192x1.rank)
  reducesTo_S16x1024x64_S16x1024_d2 : S16x1024x64.ReducesTo [2] S16x1024
  bcast_S16x1024_S16x1x1024_0_2 : S16x1024.BroadcastsInDim S16x1x1024 (![0, 2] : Fin 2 → Fin S16x1x1024.rank)
  bcast_S16x8192x1_S16x8192x1024_0_1_2 : S16x8192x1.BroadcastsInDim S16x8192x1024 (![0, 1, 2] : Fin 3 → Fin S16x8192x1024.rank)
  bcast_S16x1x1024_S16x8192x1024_0_1_2 : S16x1x1024.BroadcastsInDim S16x8192x1024 (![0, 1, 2] : Fin 3 → Fin S16x8192x1024.rank)
  bcast_S_S16x8192x1024 : S_.BroadcastsInDim S16x8192x1024 (![] : Fin 0 → Fin S16x8192x1024.rank)
  dot_S16x8192x64_S16x1024x64_S16x8192x1024_2_2_1_1_0_0_wf : DotDims.WF S16x8192x64 S16x1024x64 S16x8192x1024 [2] [2] [1] [1] [0] [0]

variable [Facts₀]

def dot_S16x8192x64_S16x1024x64_S16x8192x1024_2_2_1_1_0_0 : DotDims S16x8192x64 S16x1024x64 S16x8192x1024 where
  lhsContracting := [2]
  rhsContracting := [2]
  lhsNonContracting := [1]
  rhsNonContracting := [1]
  lhsBatch := [0]
  rhsBatch := [0]
  wf := dot_S16x8192x64_S16x1024x64_S16x8192x1024_2_2_1_1_0_0_wf

class Facts : Prop extends Facts₀ where

variable [Facts]
-- ==== Proof.Spec.lean ====
/-
  The table of Euclidean distances between rows and centroids, group by group, as ONE function of the two
  argument arrays, index by index, over the extended reals.

  For a group `g`, a row `b` of `x` and a centroid `k`, the entry is
      sqrt (max (‖x[g,b,:]‖² + ‖c[g,k,:]‖² − 2 · ⟨x[g,b,:], c[g,k,:]⟩) 0),
  the two squared norms and the inner product being sums over the 64 coordinates of a row. The constants `2`
  and `0` are kept as the binary words both programs spell them with; nothing here evaluates them.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The rows: 16 groups of 8192 rows of 64 coordinates. -/
abbrev SX : Shape := ⟨3, ![16, 8192, 64]⟩
/-- The centroids: 16 groups of 1024 centroids of 64 coordinates. -/
abbrev SC : Shape := ⟨3, ![16, 1024, 64]⟩
/-- The table: per group, a row against a centroid. -/
abbrev SO : Shape := ⟨3, ![16, 8192, 1024]⟩

/-- The squared norm of row `b` of group `g`. -/
def rowNormSq (X : SX.Idx → EReal) (g : Fin 16) (b : Fin 8192) : EReal :=
  ∑ d : Fin 64, X (ix3 g b d) * X (ix3 g b d)

/-- The squared norm of centroid `k` of group `g`. -/
def centNormSq (C : SC.Idx → EReal) (g : Fin 16) (k : Fin 1024) : EReal :=
  ∑ d : Fin 64, C (ix3 g k d) * C (ix3 g k d)

/-- The inner product of row `b` and centroid `k` of group `g`. -/
def rowDotCent (X : SX.Idx → EReal) (C : SC.Idx → EReal) (g : Fin 16) (b : Fin 8192) (k : Fin 1024) : EReal :=
  ∑ d : Fin 64, X (ix3 g b d) * C (ix3 g k d)

/-- The distance from the two squared norms and the inner product: the square root of the squared distance,
    clamped below at zero. -/
def ofParts (xx cc xc : EReal) : EReal :=
  Ideal.sqrt (max (xx + cc - Ideal.ofBits .f32 0x40000000#32 * xc) (Ideal.ofBits .f32 0x00000000#32))

/-- The distance between row `b` and centroid `k` of group `g`. -/
def entry (X : SX.Idx → EReal) (C : SC.Idx → EReal) (g : Fin 16) (b : Fin 8192) (k : Fin 1024) : EReal :=
  ofParts (rowNormSq X g b) (centNormSq C g k) (rowDotCent X C g b k)

/-- The whole table. -/
def table (X : SX.Idx → EReal) (C : SC.Idx → EReal) : SO.Idx → EReal :=
  fun i => entry X C (i 0) (i 1) (i 2)

theorem table_ix3 (X : SX.Idx → EReal) (C : SC.Idx → EReal) (g : Fin 16) (b : Fin 8192) (k : Fin 1024) :
    table X C (ix3 g b k) = entry X C g b k := rfl

end Cert.Dist

end
-- ==== Proof.RefTable.lean ====
/-
  The reference computes the table of distances: read one operation at a time at an index, its result is the
  square root of the clamped sum of the two squared norms less twice the inner product. The host's sums start
  from a zero, which adds nothing; its square root and the kernel's are one function on the extended reals.
-/
import proofs.«151827_j71408126264020_2_alg».proof.Proof.Gen.ReferenceIdeal.Read
import proofs.«151827_j71408126264020_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Dist

/-- The reference's result, as a function of its two arguments, is the table. -/
theorem value_eq_table (X : (⟨S16x8192x64, .f32⟩ : BufTy).Contents (Elt Ideal)) (C : (⟨S16x1024x64, .f32⟩ : BufTy).Contents (Elt Ideal)) :
    val_main_v15 (F := Ideal) X C = table X C := by
  funext i
  obtain ⟨g, b, k, rfl⟩ : ∃ (g : Fin 16) (b : Fin 8192) (k : Fin 1024), i = ix3 g b k := ⟨i 0, i 1, i 2, eq_ix3 i⟩
  have hx : ∀ d : Fin 64, idx_main_v1 (idx_main_v2 (idx_main_v7 (ix3 g b k))) d = ix3 g b d := fun d =>
    funext fun a => Fin.ext (by match a with | ⟨0, _⟩ => rfl | ⟨1, _⟩ => rfl | ⟨2, _⟩ => rfl)
  have hc : ∀ d : Fin 64, idx_main_v4 (idx_main_v5 (idx_main_v8 (ix3 g b k))) d = ix3 g k d := fun d =>
    funext fun a => Fin.ext (by match a with | ⟨0, _⟩ => rfl | ⟨1, _⟩ => rfl | ⟨2, _⟩ => rfl)
  have hl : ∀ d : Fin 64, lidx_main_v6 (ix3 g b k) d = ix3 g b d := fun d =>
    funext fun a => Fin.ext (by match a with | ⟨0, _⟩ => rfl | ⟨1, _⟩ => rfl | ⟨2, _⟩ => rfl)
  have hr : ∀ d : Fin 64, ridx_main_v6 (ix3 g b k) d = ix3 g k d := fun d =>
    funext fun a => Fin.ext (by match a with | ⟨0, _⟩ => rfl | ⟨1, _⟩ => rfl | ⟨2, _⟩ => rfl)
  rw [table_ix3]
  unfold entry ofParts rowNormSq centNormSq rowDotCent
  rw [val_main_v15_apply, val_main_v14_apply, val_main_v12_apply, val_main_v9_apply, val_main_v7_apply, val_main_v2_apply,
    val_main_v1_apply, val_main_v8_apply, val_main_v5_apply, val_main_v4_apply, val_main_v11_apply, val_main_v10_apply,
    val_main_cst_1_apply, val_main_v6_apply, val_main_v13_apply, val_main_cst_2_apply, val_main_cst_apply, val_main_cst_0_apply]
  simp only [val_main_v0_apply, val_main_v3_apply, hx, hc, hl, hr, Ideal.hostUnary_sqrt_def, Ideal.maximumf_def, Ideal.subf_def,
    Ideal.addf_def, Ideal.mulf_def, Ideal.ofBits_def, Ideal.ofBits_zero_f32, zero_add]

end Cert.ReferenceIdeal.RefValue

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.Payload.lean ====
/-
  The kernel body's arithmetic, read entry by entry over the extended reals.

  The body keeps two things per group: the row of squared centroid norms, and the centroids themselves in a
  narrower float format (a change of format is the identity on the extended reals). From a block of 2048 rows it
  then forms every row's squared norm, the inner products of rows and centroids as one matrix product, and the
  distance. Each of the three values the body stores is read here at one index as the textbook expression.
-/
import proofs.«151827_j71408126264020_2_alg».proof.Proof.Gen.KernelIdeal.Skeleton
import proofs.«151827_j71408126264020_2_alg».proof.Proof.Spec
import proofs.«151827_j71408126264020_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open Idealize.ShloMosaic.ColumnForms

/-! ## Sums along the 64 coordinates of a row -/

/-- The sum along the coordinates of each of 1024 rows, at row `k`. -/
theorem laneSum_1024 (src : FVec Ideal S1024x64 .f32) (h : S1024x64.Reduces [1] S1024) (hφ : FKind.Formats .f32)
    (hacc : (0x00000000#32 : BitVec 32) = FKind.add.neutral .f32 hφ) (k : Fin 1024) :
    multiReduction (F := Ideal) .add [1] S1024 src 0x00000000#32 h hφ hacc (ix1 k) = ∑ d : Fin 64, src (ix2 k d) :=
  (Ideal.multiReduction_add_single src _ h hφ hacc (ix1 k)).trans
    (Finset.sum_congr rfl fun d _ => congrArg src (funext fun a => Fin.ext (by
      match a with
      | ⟨0, _⟩ => rfl
      | ⟨1, _⟩ => rfl)))

/-- The sum along the coordinates of each of 2048 rows, at row `r`. -/
theorem laneSum_2048 (src : FVec Ideal S2048x64 .f32) (h : S2048x64.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ d : Fin 64, src (ix2 r d) :=
  (Ideal.multiReduction_add_single src _ h hφ hacc (ix1 r)).trans
    (Finset.sum_congr rfl fun d _ => congrArg src (funext fun a => Fin.ext (by
      match a with
      | ⟨0, _⟩ => rfl
      | ⟨1, _⟩ => rfl)))

/-! ## The two values kept per group -/

/-- The centroid block with its leading unit axis dropped. -/
theorem centroids_apply (v24 : Vec Ideal S1x1024x64 .f32) (k : Fin 1024) (d : Fin 64) :
    k0_pay1 (F := Ideal) v24 (ix2 k d) = v24 (ix3 (0 : Fin 1) k d) := by
  unfold k0_pay1
  exact shapeCast_1ab_ab_apply v24 _ k d

/-- The kept row of squared norms: at centroid `k`, the sum of the squares of its 64 coordinates. -/
theorem normRow_apply (v24 : Vec Ideal S1x1024x64 .f32) (k : Fin 1024) :
    k0_pay2 (F := Ideal) v24 (ix2 (0 : Fin 1) k) = ∑ d : Fin 64, v24 (ix3 (0 : Fin 1) k d) * v24 (ix3 (0 : Fin 1) k d) := by
  unfold k0_pay2
  rw [shapeCast_self]
  refine (transpose_ix2_apply _ _ (0 : Fin 1) k).trans ?_
  refine (shapeCast_a_a1_apply _ _ k (0 : Fin 1)).trans ?_
  refine (laneSum_1024 _ _ _ _ k).trans ?_
  refine Finset.sum_congr rfl fun d _ => ?_
  rw [mulf_apply, centroids_apply]

/-- The kept centroids: the block itself (narrowing the format changes nothing here). -/
theorem keptCentroids_apply (v24 : Vec Ideal S1x1024x64 .f32) (k : Fin 1024) (d : Fin 64) :
    k0_pay3 (F := Ideal) v24 (ix2 k d) = v24 (ix3 (0 : Fin 1) k d) := by
  unfold k0_pay3
  rw [shapeCast_self, truncf_apply, centroids_apply]

/-! ## The inner products of rows and kept centroids: one matrix product -/

/-- The product's dimension record: rows × coordinates against centroids × coordinates, contracting the coordinates. -/
abbrev rowsByCentroids : DotDims S2048x64 S1024x64 S2048x1024 := dot_S2048x64_S1024x64_S2048x1024_1_1_0_0_n_n

theorem lhsRow (j : S2048x1024.Idx) (q : rowsByCentroids.contr.Idx) : (rowsByCentroids.lhsIdx j q 0).val = (j 0).val := by
  unfold DotDims.lhsIdx
  rw [dif_neg (show ¬(0 : Fin S2048x64.rank) ∈ rowsByCentroids.lhsBatch by decide),
    dif_pos (show (0 : Fin S2048x64.rank) ∈ rowsByCentroids.lhsNonContracting by decide)]
  rfl

theorem lhsCoord (j : S2048x1024.Idx) (q : rowsByCentroids.contr.Idx) :
    (rowsByCentroids.lhsIdx j q 1).val = (q ⟨0, by decide⟩).val :=
  rowsByCentroids.lhsIdx_val_of_single rfl j q

theorem rhsRow (j : S2048x1024.Idx) (q : rowsByCentroids.contr.Idx) : (rowsByCentroids.rhsIdx j q 0).val = (j 1).val := by
  unfold DotDims.rhsIdx
  rw [dif_neg (show ¬(0 : Fin S1024x64.rank) ∈ rowsByCentroids.rhsBatch by decide),
    dif_pos (show (0 : Fin S1024x64.rank) ∈ rowsByCentroids.rhsNonContracting by decide)]
  rfl

theorem rhsCoord (j : S2048x1024.Idx) (q : rowsByCentroids.contr.Idx) :
    (rowsByCentroids.rhsIdx j q 1).val = (q ⟨0, by decide⟩).val :=
  rowsByCentroids.rhsIdx_val_of_single rfl j q

/-- The product into a zero accumulator, at row `r` and centroid `k`: the inner product of the two. -/
theorem product_apply (l : FVec Ideal S2048x64 .bf16) (rr : FVec Ideal S1024x64 .bf16) (r : Fin 2048) (k : Fin 1024) :
    FloatOps.matmul (F := Ideal) rowsByCentroids none l rr (constant S2048x1024 .f32 0x00000000#32) (ix2 r k)
      = ∑ d : Fin 64, l (ix2 r d) * rr (ix2 k d) := by
  rw [Ideal.matmul_constant_zero_apply, ← Equiv.sum_comp (contrEquiv1 rowsByCentroids 64 rfl rfl).symm]
  refine Finset.sum_congr rfl fun d _ => ?_
  have hd := contrEquiv1_symm_val rowsByCentroids 64 rfl rfl d
  have el : rowsByCentroids.lhsIdx (ix2 r k) ((contrEquiv1 rowsByCentroids 64 rfl rfl).symm d) = ix2 r d :=
    funext fun a => Fin.ext (by
      match a with
      | ⟨0, _⟩ => exact lhsRow _ _
      | ⟨1, _⟩ => exact (lhsCoord _ _).trans hd)
  have er : rowsByCentroids.rhsIdx (ix2 r k) ((contrEquiv1 rowsByCentroids 64 rfl rfl).symm d) = ix2 k d :=
    funext fun a => Fin.ext (by
      match a with
      | ⟨0, _⟩ => exact rhsRow _ _
      | ⟨1, _⟩ => exact (rhsCoord _ _).trans hd)
  rw [el, er]

/-! ## The distance -/

/-- The block of rows with its leading unit axis dropped. -/
theorem rows_apply (v3 : Vec Ideal S1x2048x64 .f32) (r : Fin 2048) (d : Fin 64) :
    shapeCast S2048x64 v3 shapeCasts_S1x2048x64_S2048x64 (ix2 r d) = v3 (ix3 (0 : Fin 1) r d) :=
  shapeCast_1ab_ab_apply v3 _ r d

/-- What the body stores for a block of rows `v3`, the kept row of squared centroid norms `v8` and the kept
    centroids `v10`: at row `r` and centroid `k`, the distance from the row's squared norm, the kept squared norm
    and the inner product of the row with the kept centroid. -/
theorem distance_apply (v3 : Vec Ideal S1x2048x64 .f32) (v8 : Vec Ideal S1x1024 .f32) (v10 : Vec Ideal S1024x64 .bf16)
    (u : Fin 1) (r : Fin 2048) (k : Fin 1024) :
    k0_pay4 (F := Ideal) v3 v8 v10 (ix3 u r k)
      = Cert.Dist.ofParts (∑ d : Fin 64, v3 (ix3 (0 : Fin 1) r d) * v3 (ix3 (0 : Fin 1) r d)) (v8 (ix2 (0 : Fin 1) k))
          (∑ d : Fin 64, v3 (ix3 (0 : Fin 1) r d) * v10 (ix2 k d)) := by
  unfold k0_pay4
  refine (shapeCast_ab_1ab_apply _ _ u r k).trans ?_
  unfold Cert.Dist.ofParts
  show Ideal.sqrt (max (_ + _ - _ * _) _) = _
  refine congrArg Ideal.sqrt (congrArg (max · _) ?_)
  refine congrArg₂ (· - ·) (congrArg₂ (· + ·) ?_ ?_) (congrArg (_ * ·) ?_)
  · refine (broadcastTo_a1_ab_apply _ _ r k).trans ?_
    refine (shapeCast_a_a1_apply _ _ r (0 : Fin 1)).trans ?_
    refine (laneSum_2048 _ _ _ _ r).trans ?_
    refine Finset.sum_congr rfl fun d _ => ?_
    rw [mulf_apply, rows_apply]
  · exact broadcastTo_1b_ab_apply _ _ r k
  · refine (product_apply _ _ r k).trans ?_
    refine Finset.sum_congr rfl fun d _ => ?_
    rw [truncf_apply, rows_apply]

end Cert.KernelIdeal.Body

end
-- ==== Proof.Pieces.lean ====
/-
  What one run of the kernel body leaves behind, as values of what it was given.

  The body runs in one of two ways. At the first block of rows of a group it first recomputes the two values it
  keeps for the group from the group's centroids — the row of squared norms and the centroids in the narrower
  format — stores them, and reads them back; at the other blocks it reads what the block before left. Either way
  it then stores the distances of its block of rows, computed from the rows and the two kept values. Every store
  covers its whole buffer and every load reads a whole buffer, so each buffer ends at exactly one stored value.
-/
import proofs.«151827_j71408126264020_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Away from a group's first block: the distances of the rows `x0` from the kept values `xs0`, `xs1` the block
    before left. -/
theorem later_distances (c : Dev nD) (i : grid0.Coords) (a2 : Memref sig .tc .vmem S1x2048x64 .f32) (h2 : a2.IsWhole)
    (a3 : Memref sig .tc .vmem S1x1024x64 .f32) (h3 : a3.IsWhole) (a4 : Memref sig .tc .vmem S1x2048x1024 .f32) (h4 : a4.IsWhole)
    (a5 : Memref sig .tc .vmem S1x1024 .f32) (h5 : a5.IsWhole) (a6 : Memref sig .tc .vmem S1024x64 .bf16) (h6 : a6.IsWhole)
    (hc : ¬cond0_0 i) (x0 : Vec F S1x2048x64 .f32) (x1 : Vec F S1x1024x64 .f32) (xs0 : Vec F S1x1024 .f32) (xs1 : Vec F S1024x64 .bf16) :
    out0_B_2 c i a2 h2 a3 h3 a4 h4 a5 h5 a6 h6 hc x0 x1 xs0 xs1 = k0_pay4 x0 xs0 xs1 := by
  unfold out0_B_2
  rw [View.read_writes_eq_canon _ _ _ (cover0_B_2 c i a2 h2 a3 h3 a4 h4 a5 h5 a6 h6 hc x0 x1 xs0 xs1)]
  unfold kernelRun0_B
  dsimp only
  sl_unfold_words
  rw [View.canon_unit_zero zeros3]
  simp only [View.readAt_eq_ld, h2.read_unread, h5.read_unread, h6.read_unread, View.ld_unit_zero (S := S1x2048x64) zeros3,
    View.ld_unit_zero (S := S1x1024) zeros2, View.ld_unit_zero (S := S1024x64) zeros2]

/-- At a group's first block: the row of squared norms kept for the group, from the group's centroids `x1`. -/
theorem first_normRow (c : Dev nD) (i : grid0.Coords) (a2 : Memref sig .tc .vmem S1x2048x64 .f32) (h2 : a2.IsWhole)
    (a3 : Memref sig .tc .vmem S1x1024x64 .f32) (h3 : a3.IsWhole) (a4 : Memref sig .tc .vmem S1x2048x1024 .f32) (h4 : a4.IsWhole)
    (a5 : Memref sig .tc .vmem S1x1024 .f32) (h5 : a5.IsWhole) (a6 : Memref sig .tc .vmem S1024x64 .bf16) (h6 : a6.IsWhole)
    (hc : cond0_0 i) (x0 : Vec F S1x2048x64 .f32) (x1 : Vec F S1x1024x64 .f32) :
    sout0_A_0 c i a2 h2 a3 h3 a4 h4 a5 h5 a6 h6 hc x0 x1 = k0_pay2 x1 := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_unit_zero zeros2]
  simp only [View.readAt_eq_ld, h3.read_unread, View.ld_unit_zero (S := S1x1024x64) zeros3]

/-- At a group's first block: the centroids kept for the group, from the group's centroids `x1`. -/
theorem first_keptCentroids (c : Dev nD) (i : grid0.Coords) (a2 : Memref sig .tc .vmem S1x2048x64 .f32) (h2 : a2.IsWhole)
    (a3 : Memref sig .tc .vmem S1x1024x64 .f32) (h3 : a3.IsWhole) (a4 : Memref sig .tc .vmem S1x2048x1024 .f32) (h4 : a4.IsWhole)
    (a5 : Memref sig .tc .vmem S1x1024 .f32) (h5 : a5.IsWhole) (a6 : Memref sig .tc .vmem S1024x64 .bf16) (h6 : a6.IsWhole)
    (hc : cond0_0 i) (x0 : Vec F S1x2048x64 .f32) (x1 : Vec F S1x1024x64 .f32) :
    sout0_A_1 c i a2 h2 a3 h3 a4 h4 a5 h5 a6 h6 hc x0 x1 = k0_pay3 x1 := by
  unfold sout0_A_1
  rw [View.read_writes_eq_canon _ _ _ (scover0_A_1 c i a2 h2 a3 h3 a4 h4 a5 h5 a6 h6 hc x0 x1)]
  unfold kernelRun0_A
  dsimp only
  sl_unfold_words
  rw [View.canon_unit_zero zeros2]
  simp only [View.readAt_eq_ld, h3.read_unread, View.ld_unit_zero (S := S1x1024x64) zeros3]

/-- At a group's first block: the distances of the rows `x0` from the two values just kept, read back. -/
theorem first_distances (c : Dev nD) (i : grid0.Coords) (a2 : Memref sig .tc .vmem S1x2048x64 .f32) (h2 : a2.IsWhole)
    (a3 : Memref sig .tc .vmem S1x1024x64 .f32) (h3 : a3.IsWhole) (a4 : Memref sig .tc .vmem S1x2048x1024 .f32) (h4 : a4.IsWhole)
    (a5 : Memref sig .tc .vmem S1x1024 .f32) (h5 : a5.IsWhole) (a6 : Memref sig .tc .vmem S1024x64 .bf16) (h6 : a6.IsWhole)
    (hc : cond0_0 i) (x0 : Vec F S1x2048x64 .f32) (x1 : Vec F S1x1024x64 .f32) :
    out0_A_2 c i a2 h2 a3 h3 a4 h4 a5 h5 a6 h6 hc x0 x1 = k0_pay4 x0 (k0_pay2 x1) (k0_pay3 x1) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero zeros3, View.readCov_unit_zero (S := S1x1024) _ zeros2, View.readCov_unit_zero (S := S1024x64) _ zeros2]
  simp only [View.readAt_eq_ld, h2.read_unread, h3.read_unread, View.ld_unit_zero (S := S1x2048x64) zeros3,
    View.ld_unit_zero (S := S1x1024x64) zeros3]

end Cert.KernelIdeal.Body

end
-- ==== Proof.KernelTable.lean ====
/-
  The kernel's result array is the table of distances.

  The 64 grid points run group by group: point `t` handles block `t % 4` (2048 rows) of group `t / 4`. Along the
  run the body keeps, from the first block of a group to its last, the group's row of squared centroid norms and
  the group's centroids; by induction on the point, after point `t` they are those of group `t / 4`. So what
  point `t` writes back is, entry by entry, the distance of a row of its block from a centroid of its group — the
  table, read through the block — and the 64 blocks cover the result array.
-/
import proofs.«151827_j71408126264020_2_alg».proof.Proof.Gen.KernelIdeal.Value
import proofs.«151827_j71408126264020_2_alg».proof.Proof.Spec
import proofs.«151827_j71408126264020_2_alg».proof.Proof.Payload
import proofs.«151827_j71408126264020_2_alg».proof.Proof.Pieces
import Idealize.ShloMosaic.Lib.Pipeline.Value
import Idealize.ShloMosaic.Lib.ValueIdx

noncomputable section

namespace Cert.KernelIdeal.TableValue

open Cert.KernelIdeal Cert.KernelIdeal.Gen Cert.KernelIdeal.Body Idealize.ShloMosaic Idealize.ShloMosaic.TcCoe Idealize.SL.Sem
open Idealize.ShloMosaic.ValueIdx Cert.Dist
open Idealize.ShloMosaic.Pipeline (Dat)

variable (m : (ℓ : Loc nD τ sig) → Buf (Elt Ideal) ℓ) (ρ : Dev nD → PrngReg)

/-! ## Which block each window is on -/

/-- Point `t` is block `t % 4` of group `t / 4`: the rows' and the result's windows are on that block, the
    centroids' window on the group's one block (decided over the 64 points). -/
theorem blockIndices : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- The rows' block at point `t`, entry `(r, d)`: coordinate `d` of row `2048 · (t % 4) + r` of group `t / 4`. -/
theorem rowsBlock (c : Dev nD) (t : Fin cfg0.N) (g : Fin 16) (hg : g.val = t.val / 4) (u : Fin 1) (r : Fin 2048) (d : Fin 64)
    (b : Fin 8192) (hb : b.val = 2048 * (t.val % 4) + r.val) :
    iblk m c 0 t (ix3 u r d) = V m c main_arg0 (ix3 g b d) := by
  obtain ⟨e0, e1, e2, -⟩ := blockIndices t
  show V m c main_arg0 (((cfg0.win 0).blk t).view.emb (ix3 u r d)) = V m c main_arg0 (ix3 g b d)
  refine congrArg (V m c main_arg0) (funext fun a => Fin.ext ?_)
  match a with
  | ⟨0, _⟩ => show win0_0.index t (0 : Fin 3) * 1 + 1 * u.val = g.val; rw [e0, hg]; have := u.isLt; omega
  | ⟨1, _⟩ => show win0_0.index t (1 : Fin 3) * 2048 + 1 * r.val = b.val; rw [e1, hb]; omega
  | ⟨2, _⟩ => show win0_0.index t (2 : Fin 3) * 64 + 1 * d.val = d.val; rw [e2]; omega

/-- The centroids' block at point `t`, entry `(k, d)`: coordinate `d` of centroid `k` of group `t / 4`. -/
theorem centroidsBlock (c : Dev nD) (t : Fin cfg0.N) (g : Fin 16) (hg : g.val = t.val / 4) (u : Fin 1) (k : Fin 1024) (d : Fin 64) :
    iblk m c 1 t (ix3 u k d) = V m c main_arg1 (ix3 g k d) := by
  obtain ⟨-, -, -, e0, e1, e2, -⟩ := blockIndices t
  show V m c main_arg1 (((cfg0.win 1).blk t).view.emb (ix3 u k d)) = V m c main_arg1 (ix3 g k d)
  refine congrArg (V m c main_arg1) (funext fun a => Fin.ext ?_)
  match a with
  | ⟨0, _⟩ => show win0_1.index t (0 : Fin 3) * 1 + 1 * u.val = g.val; rw [e0, hg]; have := u.isLt; omega
  | ⟨1, _⟩ => show win0_1.index t (1 : Fin 3) * 1024 + 1 * k.val = k.val; rw [e1]; omega
  | ⟨2, _⟩ => show win0_1.index t (2 : Fin 3) * 64 + 1 * d.val = d.val; rw [e2]; omega

/-! ## The two values kept per group -/

/-- Recomputed from the centroids' block at point `t`: the squared norms of the centroids of group `t / 4`. -/
theorem fresh_normRow (c : Dev nD) (t : Fin cfg0.N) (g : Fin 16) (hg : g.val = t.val / 4) (k : Fin 1024) :
    k0_pay2 (iblk m c 1 t) (ix2 (0 : Fin 1) k) = centNormSq (V m c main_arg1) g k := by
  rw [normRow_apply (iblk m c 1 t) k]
  unfold centNormSq
  exact Finset.sum_congr rfl fun d _ => by rw [centroidsBlock m c t g hg 0 k d]

/-- Recomputed from the centroids' block at point `t`: the centroids of group `t / 4`. -/
theorem fresh_centroids (c : Dev nD) (t : Fin cfg0.N) (g : Fin 16) (hg : g.val = t.val / 4) (k : Fin 1024) (d : Fin 64) :
    k0_pay3 (iblk m c 1 t) (ix2 k d) = V m c main_arg1 (ix3 g k d) := by
  rw [keptCentroids_apply (iblk m c 1 t) k d, centroidsBlock m c t g hg 0 k d]

/-- After point `n` the body keeps the squared norms and the centroids of group `g`. -/
def KeptAt (c : Dev nD) (n : ℕ) (h : n < cfg0.N) (g : Fin 16) : Prop :=
  (∀ k : Fin 1024, (outsAt0 m c n h).2.1 (ix2 (0 : Fin 1) k) = centNormSq (V m c main_arg1) g k)
  ∧ (∀ (k : Fin 1024) (d : Fin 64), (outsAt0 m c n h).2.2 (ix2 k d) = V m c main_arg1 (ix3 g k d))

/-- At a group's first block the two values are recomputed: they are the group's. -/
theorem kept_first (c : Dev nD) (t : Fin cfg0.N) (h0 : t.val % 4 = 0) (g : Fin 16) (hg : g.val = t.val / 4) :
    KeptAt m c t.val t.isLt g := by
  unfold KeptAt
  rw [outsAt0_A m c t h0]
  dsimp only
  rw [first_normRow, first_keptCentroids]
  exact ⟨fun k => fresh_normRow m c t g hg k, fun k d => fresh_centroids m c t g hg k d⟩

/-- After every point `n` the two kept values are those of group `n / 4`: recomputed at a group's first block,
    handed on unchanged at the others, which are in the same group as the point before. -/
theorem kept (c : Dev nD) : ∀ (n : ℕ) (h : n < cfg0.N) (g : Fin 16) (hg : g.val = n / 4), KeptAt m c n h g
  | 0, h, g, hg => kept_first m c ⟨0, h⟩ rfl g hg
  | n + 1, h, g, hg => by
    by_cases h0 : (n + 1) % 4 = 0
    · exact kept_first m c ⟨n + 1, h⟩ h0 g hg
    · have ih := kept c n (Nat.lt_of_succ_lt h) g (by omega)
      unfold KeptAt at ih ⊢
      rw [show outsAt0 m c (n + 1) h = _ from outsAt0_B m c ⟨n + 1, h⟩ h0]
      unfold sout0_B_0 sout0_B_1
      exact ih

/-! ## What a point writes back -/

/-- The distances the body computes at point `t` from the rows' block and the kept values of the point's group. -/
theorem distances_of_kept (c : Dev nD) (t : Fin cfg0.N) (g : Fin 16) (hg : g.val = t.val / 4) (u : Fin 1) (r : Fin 2048)
    (k : Fin 1024) (b : Fin 8192) (hb : b.val = 2048 * (t.val % 4) + r.val)
    (c2 : Vec Ideal S1x1024 .f32) (cb : Vec Ideal S1024x64 .bf16)
    (h2 : ∀ k : Fin 1024, c2 (ix2 (0 : Fin 1) k) = centNormSq (V m c main_arg1) g k)
    (hcb : ∀ (k : Fin 1024) (d : Fin 64), cb (ix2 k d) = V m c main_arg1 (ix3 g k d)) :
    k0_pay4 (iblk m c 0 t) c2 cb (ix3 u r k) = entry (V m c main_arg0) (V m c main_arg1) g b k := by
  rw [distance_apply (iblk m c 0 t) c2 cb u r k, h2 k]
  unfold entry rowNormSq rowDotCent
  have hx : ∀ d : Fin 64, iblk m c 0 t (ix3 (0 : Fin 1) r d) = V m c main_arg0 (ix3 g b d) :=
    fun d => rowsBlock m c t g hg 0 r d b hb
  refine congrArg₂ (fun p q => ofParts p _ q) ?_ ?_
  · exact Finset.sum_congr rfl fun d _ => by rw [hx d]
  · exact Finset.sum_congr rfl fun d _ => by rw [hx d, hcb k d]

/-- The result's staging buffer after point `t`, entry `(r, k)`: the distance between row `2048 · (t % 4) + r` and
    centroid `k` of group `t / 4`. -/
theorem distancesAt (c : Dev nD) (t : Fin cfg0.N) (g : Fin 16) (hg : g.val = t.val / 4) (u : Fin 1) (r : Fin 2048)
    (k : Fin 1024) (b : Fin 8192) (hb : b.val = 2048 * (t.val % 4) + r.val) :
    (outsAt0 m c t.val t.isLt).1 (ix3 u r k) = entry (V m c main_arg0) (V m c main_arg1) g b k := by
  by_cases h0 : t.val % 4 = 0
  · rw [outsAt0_A m c t h0]
    dsimp only
    rw [first_distances]
    exact distances_of_kept m c t g hg u r k b hb _ _ (fun k => fresh_normRow m c t g hg k)
      (fun k d => fresh_centroids m c t g hg k d)
  · have hN : t.val < 64 := lt_of_lt_of_eq t.isLt N_0
    have hk := kept m c (t.val - 1) (Nat.lt_of_le_of_lt (Nat.sub_le _ _) t.isLt) g (by omega)
    rw [outsAt0_B m c t h0]
    dsimp only
    rw [later_distances]
    exact distances_of_kept m c t g hg u r k b hb _ _ hk.1 hk.2

/-- What point `t` writes back is the table read through the point's block of the result array. -/
theorem flushed_eq (c : Dev nD) (t : Fin cfg0.N) :
    (dats m 0 c).flushed 2 t = ((cfg0.win 2).blk t).view.read (Elt Ideal) (table (V m c main_arg0) (V m c main_arg1)) := by
  rw [Cert.KernelIdeal.Value.flushed2 m c t]
  obtain ⟨-, -, -, -, -, -, e0, e1, e2⟩ := blockIndices t
  have hN : t.val < 64 := lt_of_lt_of_eq t.isLt N_0
  funext j
  obtain ⟨u, r, k, rfl⟩ : ∃ (u : Fin 1) (r : Fin 2048) (k : Fin 1024), j = ix3 u r k := ⟨j 0, j 1, j 2, eq_ix3 j⟩
  show (outsAt0 m c t.val t.isLt).1 (ix3 u r k)
    = table (V m c main_arg0) (V m c main_arg1) (((cfg0.win 2).blk t).view.emb (ix3 u r k))
  rw [distancesAt m c t ⟨t.val / 4, by omega⟩ rfl u r k ⟨2048 * (t.val % 4) + r.val, by have := r.isLt; omega⟩ rfl,
    ← table_ix3]
  refine congrArg (table (V m c main_arg0) (V m c main_arg1)) (funext fun a => Fin.ext ?_)
  match a with
  | ⟨0, _⟩ => show t.val / 4 = win0_2.index t (0 : Fin 3) * 1 + 1 * u.val; rw [e0]; have := u.isLt; omega
  | ⟨1, _⟩ => show 2048 * (t.val % 4) + r.val = win0_2.index t (1 : Fin 3) * 2048 + 1 * r.val; rw [e1]; omega
  | ⟨2, _⟩ => show k.val = win0_2.index t (2 : Fin 3) * 1024 + 1 * k.val; rw [e2]; omega

/-! ## The 64 blocks cover the result array -/

/-- An index of the result array is in point `t`'s block iff each coordinate is in the block's range on its axis. -/
theorem mem_block (t : Fin cfg0.N) (i : S16x8192x1024.Idx) :
    i ∈ ((cfg0.win 2).blk t).view.set ↔ ∀ a : Fin 3, win0_2.index t a * S1x2048x1024.size a ≤ (i a).val
      ∧ (i a).val < win0_2.index t a * S1x2048x1024.size a + S1x2048x1024.size a := by
  show i ∈ ((View.whole main_v0).slice (win0_2.rect t)).set ↔ _
  rw [View.set_slice_whole, Rect.mem_set_unit]
  exact Iff.rfl

/-- Entry `(g, b, k)` is written back by point `4 g + b / 2048`. -/
theorem covered (i : S16x8192x1024.Idx) :
    ∃ t : Fin cfg0.N, (cfg0.win 2).flush t = true ∧ i ∈ ((cfg0.win 2).blk t).view.set := by
  have h0 : (i 0).val < 16 := (i 0).isLt
  have h1 : (i 1).val < 8192 := (i 1).isLt
  have h2 : (i 2).val < 1024 := (i 2).isLt
  have hN : cfg0.N = 64 := N_0
  obtain ⟨t, tv⟩ : ∃ t : Fin cfg0.N, t.val = 4 * (i 0).val + (i 1).val / 2048 :=
    ⟨⟨4 * (i 0).val + (i 1).val / 2048, by rw [hN]; omega⟩, rfl⟩
  refine ⟨t, flush0_2 t, ?_⟩
  rw [mem_block]
  obtain ⟨-, -, -, -, -, -, e0, e1, e2⟩ := blockIndices t
  intro a
  match a with
  | ⟨0, _⟩ =>
    show win0_2.index t (0 : Fin 3) * 1 ≤ (i 0).val ∧ (i 0).val < win0_2.index t (0 : Fin 3) * 1 + 1
    rw [e0, tv]; omega
  | ⟨1, _⟩ =>
    show win0_2.index t (1 : Fin 3) * 2048 ≤ (i 1).val ∧ (i 1).val < win0_2.index t (1 : Fin 3) * 2048 + 2048
    rw [e1, tv]; omega
  | ⟨2, _⟩ =>
    show win0_2.index t (2 : Fin 3) * 1024 ≤ (i 2).val ∧ (i 2).val < win0_2.index t (2 : Fin 3) * 1024 + 1024
    rw [e2]; omega

/-- The result array after the run is the table of the two argument arrays. -/
theorem final (c : Dev nD) : (dats m 0 c).arrAt 2 cfg0.N = table (V m c main_arg0) (V m c main_arg1) :=
  (dats m 0 c).arrAt_eq_of_cover 2 (table (V m c main_arg0) (V m c main_arg1)) (fun t _ => flushed_eq m c t) covered

/-- The kernel's run: it ends with the result array at the table of the arguments, the arguments unchanged. -/
theorem run : θ_run defs (onTc (τ := τ) (main (F := Ideal))) ⟨m, fun _ => 0, ρ⟩ fun r => ∀ c : Dev nD,
      r.2.mem ((c : Thread nD τ).loc main_v0)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.TableValue

end
-- ==== Proof.lean ====
/-
  Distances between rows and centroids, group by group: the kernel against its plain reference.

  Both programs take `x` (16 groups of 8192 rows of 64 coordinates) and `centroids` (16 groups of 1024 centroids)
  and return, for every group, row and centroid, the Euclidean distance
      sqrt (max (‖row‖² + ‖centroid‖² − 2 · ⟨row, centroid⟩) 0).
  The reference computes the three terms for the whole arrays at once. The kernel walks the 64 blocks of 2048
  rows; at the first block of a group it computes the group's squared centroid norms and keeps them, with the
  centroids in a narrower float format, for the group's other three blocks, and forms the inner products of a
  block's rows with the kept centroids as one matrix product.

  Over the extended reals the two agree entry by entry, for every input: a change of float format is the
  identity, a matrix product into a zero accumulator and a sum along the coordinates are the plain sums the
  reference's contraction and reduction are, and the remaining operations are the same on both sides, literal
  for literal. No law that needs finiteness is used, so the precondition is never opened.

    Spec        the table of distances as one function of the two arrays
    RefTable    the reference's result is the table
    Payload     the kernel body's stored values, read at an index
    Pieces      what one run of the body leaves in its buffers
    KernelTable the kernel's result array is the table (the kept values by induction on the point; the blocks cover)

  The three frames are the generated ones (the reference's is its generated run with the result dropped); the
  idealization rewrote nothing, so there is nothing to preserve.
-/
import proofs.«151827_j71408126264020_2_alg».proof.Defs
import proofs.«151827_j71408126264020_2_alg».proof.Proof.Gen.Kernel
import proofs.«151827_j71408126264020_2_alg».proof.Proof.Gen.Kernel.Frame
import proofs.«151827_j71408126264020_2_alg».proof.Proof.Gen.KernelIdeal
import proofs.«151827_j71408126264020_2_alg».proof.Proof.Gen.KernelIdeal.Frame
import proofs.«151827_j71408126264020_2_alg».proof.Proof.Gen.KernelIdeal.Value
import proofs.«151827_j71408126264020_2_alg».proof.Proof.Gen.ReferenceIdeal
import proofs.«151827_j71408126264020_2_alg».proof.Proof.Gen.ReferenceIdeal.Run
import proofs.«151827_j71408126264020_2_alg».proof.Proof.Gen.ReferenceIdeal.Read
import proofs.«151827_j71408126264020_2_alg».proof.Proof.Gen.Pre_finite_inputs
import proofs.«151827_j71408126264020_2_alg».proof.Proof.Spec
import proofs.«151827_j71408126264020_2_alg».proof.Proof.RefTable
import proofs.«151827_j71408126264020_2_alg».proof.Proof.KernelTable
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the table of distances of those
    arguments: the kernel's result array block by block, the reference's as its last operation's value. -/
theorem algebraic : Cert.algebraic_KernelIdeal_ReferenceIdeal := by
  intro m ρ m' ρ' _ hagree
  refine ⟨fun c => Cert.Dist.table (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.TableValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.value_eq_table, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
